-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S64 .f32) (main_arg6 : FVec F S64x10 .f32) (main_arg7 : FVec F S10 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg6
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) (main_arg6 : FVec F S64x10 .f32) (main_arg7 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x512 : Shape := ⟨2, ![2000, 512]⟩
abbrev S2000x128 : Shape := ⟨2, ![2000, 128]⟩
abbrev S1x128 : Shape := ⟨2, ![1, 128]⟩
abbrev S1700000x128 : Shape := ⟨2, ![1700000, 128]⟩
abbrev S100000x64 : Shape := ⟨2, ![100000, 64]⟩
abbrev S2000x64 : Shape := ⟨2, ![2000, 64]⟩
abbrev S1x64 : Shape := ⟨2, ![1, 64]⟩
abbrev S1700000x64 : Shape := ⟨2, ![1700000, 64]⟩
abbrev S100000x10 : Shape := ⟨2, ![100000, 10]⟩
abbrev S2000x10 : Shape := ⟨2, ![2000, 10]⟩
abbrev S1x10 : Shape := ⟨2, ![1, 10]⟩

abbrev nBuf : Space → Nat
  | .hbm => 99
  | .vmem => 18
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .f32⟩
  | .hbm, ⟨49, _⟩ => ⟨S128, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S64, .f32⟩
  | .hbm, ⟨75, _⟩ => ⟨S100000x64, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x64, .f32⟩
  | .hbm, ⟨85, _⟩ => ⟨S1700000x1, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x10, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x64, .f32⟩
  | .local _ .vmem, ⟨9, _⟩ => ⟨S64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x10, .f32⟩
  | .local _ .vmem, ⟨15, _⟩ => ⟨S10, .f32⟩
  | .local _ .vmem, ⟨16, _⟩ => ⟨S2000x10, .f32⟩
  | .local _ .vmem, ⟨17, _⟩ => ⟨S2000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S128 : S_.BroadcastsInDim S128 (![] : Fin 0 → Fin S128.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x128_S2000x128_1_0_0_1_n_n_wf : DotDims.WF S2000x512 S512x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x10_S2000x10_1_0_0_1_n_n_wf : DotDims.WF S2000x64 S64x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10.size a ≤ S10.size a
  hwx2_2 : ∀ i : grid2.Coords, EltTy.bits .f32 = 32 ∨ (Rect.block (s := S10) S10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x10.size a ≤ S100000x10.size a
  hwx2_3 : ∀ i : grid2.Coords, EltTy.bits .f32 = 32 ∨ (Rect.block (s := S100000x10) S2000x10.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S2000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x10 : Shape := ⟨2, ![100000, 10]⟩
abbrev S1x10 : Shape := ⟨2, ![1, 10]⟩

abbrev nBuf : Space → Nat
  | .hbm => 98
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x10, .f32⟩
  | .hbm, ⟨95, _⟩ => ⟨S1x10, .f32⟩
  | .hbm, ⟨96, _⟩ => ⟨S100000x10, .f32⟩
  | .hbm, ⟨97, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x10_S100000x10_1_0_0_1_n_n_wf : DotDims.WF S100000x64 S64x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.LibRowDot.lean ====
/-
  A rows-by-columns product read at an index.

  For the plain dimension numbers of an [M, K] by [K, N] product (the left operand contracted on its axis 1, the
  right on its axis 0, no batch axis) the sum over the contraction index of the operands' products at output
  element (p, q) is the sum over k < K of left (p, k) times right (k, q).  Both a matmul into a zero
  accumulator and the host's dot_general are that sum on the extended reals.
-/
import Idealize.ShloMosaic.PureOps.Ideal.Laws
import Idealize.ShloMosaic.Lib.ValueIdx

noncomputable section

namespace Idealize.ShloMosaic.RowDot

open Idealize.ShloMosaic Idealize.ShloMosaic.ValueIdx

variable {M K N : Nat}

/-- The contraction's sum of a plain product at output element j, re-indexed by the contracted coordinate. -/
theorem plain_sum (l : (⟨2, ![M, K]⟩ : Shape).Idx → EReal) (r : (⟨2, ![K, N]⟩ : Shape).Idx → EReal)
    (j : (⟨2, ![M, N]⟩ : Shape).Idx) :
    ∑ k : (DotDims.plain M K N).contr.Idx,
        l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congr (congrArg (fun a b : EReal => a * b) (congrArg l el)) (congrArg r er)

/-- A matmul into the zero accumulator, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, (l (ix2 p k) : EReal) * (r (ix2 k q) : EReal) := by
  rw [Ideal.matmul_constant_zero_apply]
  exact plain_sum (M := M) (K := K) (N := N) l r (ix2 p q)

/-- The host's dot_general, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q)
      = ∑ k : Fin K, (l (ix2 p k) : EReal) * (r (ix2 k q) : EReal) := by
  rw [Ideal.dotGeneral_apply]
  exact plain_sum (M := M) (K := K) (N := N) l r (ix2 p q)

end Idealize.ShloMosaic.RowDot

end
-- ==== Proof.Dense.lean ====
/-
  One dense layer, index by index.

  For an [M, K] array X, a [K, N] array W and a bias row b of length N, `affine X W b` is the [M, N] array whose
  element (p, q) is  (sum over k < K of X (p, k) * W (k, q)) + b q  on the extended reals.

  Two programs compute it.  A tiled kernel body takes a block of rows of X, narrows both operands to a shorter float
  format (the identity on the extended reals), multiplies them into a zero accumulator and adds the bias row broadcast
  over the block's rows: element (r, q) of the block is the same sum over the block's row r.  The host takes the whole
  product with a dot_general and, where there is a bias, adds the bias broadcast first to a [1, N] row and then to
  [M, N].  With a bias of zeros the sum is unchanged (x + 0 = x on the extended reals, infinities included), so the
  dot_general alone is `affine` at the zero row.  No law here needs finiteness.
-/
import Idealize.ShloMosaic.PureOps.Ideal.Laws
import Idealize.ShloMosaic.Lib.ValueIdx
import Idealize.ShloMosaic.Lib.ValueLayout
import Idealize.ShloMosaic.Lib.Pipeline.Value
import proofs.«139325_j49752901156905_1_alg».proof.Proof.LibRowDot

noncomputable section

namespace Cert.DenseLayer

open Idealize.ShloMosaic Idealize.ShloMosaic.ValueIdx

variable {M K N : Nat}

/-- Rows by columns plus a bias row: element (p, q) is the sum over k of X (p, k) * W (k, q), plus b q. -/
def affine (X : FVec Ideal ⟨2, ![M, K]⟩ .f32) (W : FVec Ideal ⟨2, ![K, N]⟩ .f32) (b : FVec Ideal ⟨1, ![N]⟩ .f32) :
    FVec Ideal ⟨2, ![M, N]⟩ .f32 :=
  fun j => (∑ k : Fin K, (X (ix2 (j 0) k) : EReal) * (W (ix2 k (j 1)) : EReal)) + (b (ix1 (j 1)) : EReal)

theorem affine_apply (X : FVec Ideal ⟨2, ![M, K]⟩ .f32) (W : FVec Ideal ⟨2, ![K, N]⟩ .f32) (b : FVec Ideal ⟨1, ![N]⟩ .f32)
    (p : Fin M) (q : Fin N) :
    affine X W b (ix2 p q) = (∑ k : Fin K, (X (ix2 p k) : EReal) * (W (ix2 k q) : EReal)) + (b (ix1 q) : EReal) := rfl

/-- A bias row cast to [1, N] and broadcast over M rows reads, at (p, q), the row at q. -/
theorem bias_rows_apply (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- THE KERNEL BODY'S BLOCK: the narrowed operands multiplied into a zero accumulator, plus the bias row broadcast over
    the rows, is `affine` of the block. -/
theorem block_eq (prec : Option ContractPrecision) (x : FVec Ideal ⟨2, ![M, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (h2 : (⟨2, ![1, N]⟩ : Shape).Broadcasts ⟨2, ![M, N]⟩) :
    addf (matmul (DotDims.plain M K N) prec (truncf .bf16 x hlt) (truncf .bf16 w hlt)
        (constant (F := Ideal) ⟨2, ![M, N]⟩ .f32 0x00000000#32))
      (broadcastTo ⟨2, ![M, N]⟩ (shapeCast ⟨2, ![1, N]⟩ b h1) h2)
      = affine x w b := by
  funext j
  obtain ⟨p, q, rfl⟩ : ∃ (p : Fin M) (q : Fin N), j = ix2 p q := ⟨j 0, j 1, eq_ix2 j⟩
  rw [affine_apply]
  refine congr (congrArg (fun a c : EReal => a + c) ?_) (bias_rows_apply b h1 h2 p q)
  exact RowDot.matmul_zero_apply (M := M) (K := K) (N := N) prec (truncf .bf16 x hlt) (truncf .bf16 w hlt) p q

/-- THE HOST'S PRODUCT with no bias is `affine` at a row of zeros. -/
theorem dotGeneral_eq (prec : Option ContractPrecision) (X : FVec Ideal ⟨2, ![M, K]⟩ .f32) (W : FVec Ideal ⟨2, ![K, N]⟩ .f32)
    (z : FVec Ideal ⟨1, ![N]⟩ .f32) (hz : ∀ i, z i = (0 : EReal)) :
    Host.dotGeneral (DotDims.plain M K N) prec X W = affine X W z := by
  funext j
  obtain ⟨p, q, rfl⟩ : ∃ (p : Fin M) (q : Fin N), j = ix2 p q := ⟨j 0, j 1, eq_ix2 j⟩
  rw [affine_apply, hz, add_zero]
  exact RowDot.dotGeneral_apply (M := M) (K := K) (N := N) prec .single X W p q

/-- A bias row broadcast to [1, N] and then to [M, N] (two broadcast_in_dim) reads, at (p, q), the row at q. -/
theorem bias_host_apply (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ (![0, 1] : Fin 2 → Fin 2) h2 (broadcastInDim ⟨2, ![1, N]⟩ (![1] : Fin 1 → Fin 2) h1 b) (ix2 p q)
      = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- THE HOST'S PRODUCT PLUS ITS BROADCAST BIAS is `affine`. -/
theorem dotGeneral_add_bias_eq (prec : Option ContractPrecision) (X : FVec Ideal ⟨2, ![M, K]⟩ .f32)
    (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral (DotDims.plain M K N) prec X W)
      (broadcastInDim ⟨2, ![M, N]⟩ (![0, 1] : Fin 2 → Fin 2) h2 (broadcastInDim ⟨2, ![1, N]⟩ (![1] : Fin 1 → Fin 2) h1 b))
      = affine X W b := by
  funext j
  obtain ⟨p, q, rfl⟩ : ∃ (p : Fin M) (q : Fin N), j = ix2 p q := ⟨j 0, j 1, eq_ix2 j⟩
  rw [affine_apply]
  refine congr (congrArg (fun a c : EReal => a + c) ?_) (bias_host_apply b h1 h2 p q)
  exact RowDot.dotGeneral_apply (M := M) (K := K) (N := N) prec .single X W p q

/-- ROW BLOCKS: if a block of rows xb of X holds, in its row `y 0`, row `i 0` of X, and the column coordinates of `y` and
    `i` agree, then `affine` of the block at `y` is `affine` of the whole array at `i`: an element of the product depends on
    one row of the left operand only. -/
theorem affine_at_block {R : Nat} (X : FVec Ideal ⟨2, ![M, K]⟩ .f32) (W : FVec Ideal ⟨2, ![K, N]⟩ .f32) (b : FVec Ideal ⟨1, ![N]⟩ .f32)
    (xb : FVec Ideal ⟨2, ![R, K]⟩ .f32) (y : (⟨2, ![R, N]⟩ : Shape).Idx) (i : (⟨2, ![M, N]⟩ : Shape).Idx)
    (hi1 : (i 1).val = (y 1).val)
    (hx : ∀ k : Fin K, xb (ix2 (y 0) k) = X (ix2 (i 0) k)) :
    affine xb W b y = affine X W b i := by
  have e : (i 1 : Fin N) = (y 1 : Fin N) := Fin.ext hi1
  show (∑ k : Fin K, (xb (ix2 (y 0) k) : EReal) * (W (ix2 k (y 1)) : EReal)) + (b (ix1 (y 1)) : EReal)
    = (∑ k : Fin K, (X (ix2 (i 0) k) : EReal) * (W (ix2 k (i 1)) : EReal)) + (b (ix1 (i 1)) : EReal)
  rw [e]
  refine congrArg (fun a : EReal => a + (b (ix1 (y 1)) : EReal)) (Finset.sum_congr rfl fun k _ => ?_)
  rw [hx k]

end Cert.DenseLayer

end
-- ==== Proof.Model.lean ====
/-
  The graph network the kernel computes, as functions of its arguments (the host operations between the three
  tiled regions, named once).

  The edge list e is [2, E] with E = 1,600,000: row 0 the sources, row 1 the destinations.  Every node gets a self loop:
  `srcIdx e` and `dstIdx e` are the two rows each followed by 0 … N−1 (N = 100,000 nodes), of length E + N.
  `degree e` counts, per node, the entries of `dstIdx e` naming it (a scatter-add of ones into zeros), `invSqrtDeg e` is
  degree^(-1/2) where the degree is positive and 0 elsewhere, and `edgeNorm e` is, per entry, the product of that at the
  entry's source and at its destination (a negative index is first wrapped by adding N: `wrapIdx`).
  One aggregation (`layer128`, `layer64`) takes node features h: per entry the source's row of h times the entry's
  norm, scatter-added into the destination's row of zeros, plus the bias row, then max with 0.
  `forward` is the whole network: dense, aggregate, dense, aggregate, dense — each dense layer `affine`, the first two
  with a bias of zeros, the last with the head's bias.  The index lists are integer arrays; the float-valued pieces are
  stated for any reading of the floats, and `forward` on the extended reals, where `affine` lives.
-/
import proofs.«139325_j49752901156905_1_alg».proof.Proof.Gen.KernelIdeal
import proofs.«139325_j49752901156905_1_alg».proof.Proof.Dense

noncomputable section

namespace Cert.KernelIdeal.Model

open Cert.KernelIdeal Cert.KernelIdeal.Gen Cert.DenseLayer
open Idealize.ShloMosaic

variable {F : FTy → Type} [FloatOps F]

/-- The sources with a self loop appended for every node. -/
def srcIdx (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations with a self loop appended for every node. -/
def dstIdx (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Each node's degree: ones scatter-added into zeros at the destinations. -/
def degree (e : IVec S2x1600000 32) : FVec F S100000 .f32 :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 (dstIdx e)) (broadcastInDim S1700000 ![] bcast_S_S1700000 (constant (F := F) S_ .f32 0x3F800000#32))

/-- degree^(-1/2) where the degree is positive, 0 elsewhere. -/
def invSqrtDeg (e : IVec S2x1600000 32) : FVec F S100000 .f32 :=
  select (cmpf (F := F) .ogt (degree e) (broadcastInDim S100000 ![] bcast_S_S100000 (constant (F := F) S_ .f32 0x00000000#32))) (Host.rsqrt (degree e)) (broadcastInDim S100000 ![] bcast_S_S100000 (constant (F := F) S_ .f32 0x00000000#32))

/-- A negative index counts from the end: N is added to it. -/
def wrapIdx (i : IVec S1700000 32) : IVec S1700000 32 :=
  select (cmpi .slt i (broadcastInDim S1700000 ![] bcast_S_S1700000 (constantI S_ 32 0#32))) (addi i (broadcastInDim S1700000 ![] bcast_S_S1700000 (constantI S_ 32 100000#32))) i

/-- Per entry: degree^(-1/2) at its source times degree^(-1/2) at its destination. -/
def edgeNorm (e : IVec S2x1600000 32) : FVec F S1700000 .f32 :=
  mulf (Host.gather gather_S100000_S1700000x1_S1700000_n_0_n_n_0_1_1 (invSqrtDeg e) (broadcastInDim S1700000x1 ![0] bcast_S1700000_S1700000x1_0 (wrapIdx (srcIdx e)))) (Host.gather gather_S100000_S1700000x1_S1700000_n_0_n_n_0_1_1 (invSqrtDeg e) (broadcastInDim S1700000x1 ![0] bcast_S1700000_S1700000x1_0 (wrapIdx (dstIdx e))))

/-- One aggregation over 128 features. -/
def layer128 (h : FVec F S100000x128 .f32) (e : IVec S2x1600000 32) (b : FVec F S128 .f32) : FVec F S100000x128 .f32 :=
  maximumf (addf (Host.scatterAdd scatter_S100000x128_S1700000x1_S1700000x128_1_0_0_1 (broadcastInDim S100000x128 ![] bcast_S_S100000x128 (constant (F := F) S_ .f32 0x00000000#32)) (broadcastInDim S1700000x1 ![0] bcast_S1700000_S1700000x1_0 (dstIdx e)) (mulf (Host.gather gather_S100000x128_S1700000x1_S1700000x128_1_0_n_n_0_1_1128 h (broadcastInDim S1700000x1 ![0] bcast_S1700000_S1700000x1_0 (wrapIdx (srcIdx e)))) (broadcastInDim S1700000x128 ![0, 1] bcast_S1700000x1_S1700000x128_0_1 (broadcastInDim S1700000x1 ![0] bcast_S1700000_S1700000x1_0 (edgeNorm e))))) (broadcastInDim S100000x128 ![0, 1] bcast_S1x128_S100000x128_0_1 (broadcastInDim S1x128 ![1] bcast_S128_S1x128_1 b))) (broadcastInDim S100000x128 ![] bcast_S_S100000x128 (constant (F := F) S_ .f32 0x00000000#32))

/-- One aggregation over 64 features. -/
def layer64 (h : FVec F S100000x64 .f32) (e : IVec S2x1600000 32) (b : FVec F S64 .f32) : FVec F S100000x64 .f32 :=
  maximumf (addf (Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 (dstIdx e)) (mulf (Host.gather gather_S100000x64_S1700000x1_S1700000x64_1_0_n_n_0_1_164 h (broadcastInDim S1700000x1 ![0] bcast_S1700000_S1700000x1_0 (wrapIdx (srcIdx e)))) (broadcastInDim S1700000x64 ![0, 1] bcast_S1700000x1_S1700000x64_0_1 (broadcastInDim S1700000x1 ![0] bcast_S1700000_S1700000x1_0 (edgeNorm e))))) (broadcastInDim S100000x64 ![0, 1] bcast_S1x64_S100000x64_0_1 (broadcastInDim S1x64 ![1] bcast_S64_S1x64_1 b))) (broadcastInDim S100000x64 ![] bcast_S_S100000x64 (constant (F := F) S_ .f32 0x00000000#32))

/-- A bias row of zeros, 128 and 64 long. -/
def zeros128 : FVec F S128 .f32 :=
  broadcastInDim S128 ![] bcast_S_S128 (constant (F := F) S_ .f32 0x00000000#32)
def zeros64 : FVec F S64 .f32 :=
  broadcastInDim S64 ![] bcast_S_S64 (constant (F := F) S_ .f32 0x00000000#32)

theorem zeros128_apply (i : S128.Idx) : zeros128 (F := Ideal) i = (0 : EReal) := Ideal.ofBits_zero_f32
theorem zeros64_apply (i : S64.Idx) : zeros64 (F := Ideal) i = (0 : EReal) := Ideal.ofBits_zero_f32

/-- The whole network. -/
def forward (x : FVec Ideal S100000x512 .f32) (e : IVec S2x1600000 32) (W1 : FVec Ideal S512x128 .f32) (b1 : FVec Ideal S128 .f32)
    (W2 : FVec Ideal S128x64 .f32) (b2 : FVec Ideal S64 .f32) (Wl : FVec Ideal S64x10 .f32) (bl : FVec Ideal S10 .f32) :
    FVec Ideal S100000x10 .f32 :=
  affine (M := 100000) (K := 64) (N := 10)
    (layer64 (affine (M := 100000) (K := 128) (N := 64)
      (layer128 (affine (M := 100000) (K := 512) (N := 128) x W1 zeros128) e b1) W2 zeros64) e b2) Wl bl

end Cert.KernelIdeal.Model

end
-- ==== Proof.RefSide.lean ====
/-
  The reference's result as the same network.

  The reference's run ends with its result at one composed term of the arguments: three dot_generals with the same host
  operations between them as the kernel has between its regions.  Each dot_general has the plain dimension numbers of a
  rows-by-columns product, so on the extended reals it is `affine`: the first two at a bias row of zeros (x + 0 = x), the
  last together with the head's bias broadcast over the rows.  The operations between them are, literally, the
  aggregation layers of `Model`.  So the term is `Model.forward` of the arguments.
-/
import proofs.«139325_j49752901156905_1_alg».proof.Proof.RefRunP
import proofs.«139325_j49752901156905_1_alg».proof.Proof.Model
import proofs.«139325_j49752901156905_1_alg».proof.Proof.Dense

set_option maxRecDepth 16384

noncomputable section

namespace Cert.ReferenceIdeal.RefValue

open Cert.ReferenceIdeal Cert.ReferenceIdeal.Gen Cert.DenseLayer
open Idealize.ShloMosaic Idealize.ShloMosaic.TcCoe Idealize.SL.Sem

/-- The three products' dimension numbers are the plain ones. -/
theorem rec1_eq : dot_S100000x512_S512x128_S100000x128_1_0_0_1_n_n = DotDims.plain 100000 512 128 := rfl
theorem rec2_eq : dot_S100000x128_S128x64_S100000x64_1_0_0_1_n_n = DotDims.plain 100000 128 64 := rfl
theorem rec3_eq : dot_S100000x64_S64x10_S100000x10_1_0_0_1_n_n = DotDims.plain 100000 64 10 := rfl

/-- The shape of the reference's result term, for any reading of the floats: three products with the two aggregation
    layers between them and the head's bias added last. -/
theorem res_shape {F : FTy → Type} [FloatOps F] (m : (ℓ : Loc nD τ sig) → Buf (Elt F) ℓ) (c : Dev nD) :
    Cert.ReferenceIdeal.RunP.res_main_v69 (F := F) m c
      = addf (Host.dotGeneral dot_S100000x64_S64x10_S100000x10_1_0_0_1_n_n none
        (Cert.KernelIdeal.Model.layer64 (F := F) (Host.dotGeneral dot_S100000x128_S128x64_S100000x64_1_0_0_1_n_n none
          (Cert.KernelIdeal.Model.layer128 (F := F) (Host.dotGeneral dot_S100000x512_S512x128_S100000x128_1_0_0_1_n_n none (m ((c.tc : Thread nD τ).loc main_arg0)) (m ((c.tc : Thread nD τ).loc main_arg2)))
            (m ((c.tc : Thread nD τ).loc main_arg1)) (m ((c.tc : Thread nD τ).loc main_arg3))) (m ((c.tc : Thread nD τ).loc main_arg4))) (m ((c.tc : Thread nD τ).loc main_arg1)) (m ((c.tc : Thread nD τ).loc main_arg5))) (m ((c.tc : Thread nD τ).loc main_arg6)))
      (broadcastInDim S100000x10 ![0, 1] bcast_S1x10_S100000x10_0_1 (broadcastInDim S1x10 ![1] bcast_S10_S1x10_1 (m ((c.tc : Thread nD τ).loc main_arg7)))) := by
  unfold Cert.ReferenceIdeal.RunP.res_main_v69
  rfl

/-- On the extended reals the reference's result term is the network of the arguments. -/
theorem res_eq (m : (ℓ : Loc nD τ sig) → Buf (Elt Ideal) ℓ) (c : Dev nD) :
    Cert.ReferenceIdeal.RunP.res_main_v69 (F := Ideal) m c
      = Cert.KernelIdeal.Model.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [res_shape (F := Ideal) m c, rec1_eq, rec2_eq, rec3_eq]
  rw [dotGeneral_add_bias_eq, dotGeneral_eq none _ _ (Cert.KernelIdeal.Model.zeros64 (F := Ideal)) Cert.KernelIdeal.Model.zeros64_apply,
    dotGeneral_eq none _ _ (Cert.KernelIdeal.Model.zeros128 (F := Ideal)) Cert.KernelIdeal.Model.zeros128_apply]
  rfl

end Cert.ReferenceIdeal.RefValue

end
-- ==== Proof.KernelRun.lean ====
/-
  The idealized kernel's run with its result named.

  @main is eleven segments: stretches of host operations and three tiled regions.  The buffer contents at every
  segment boundary are a fold from the launch memory (the generated `Gen.W0 … Gen.W11`): a stretch of host operations
  applies them, a region replaces its arrays by what its write-backs leave and keeps every other buffer.  Every weakly
  fair execution ends with every unscoped buffer at the last boundary's contents `Gen.W11`; the generated frame reads
  off only the arguments there.  Here the same run is read at the result buffer as well: it ends at
  `Gen.W11 m ρ c main_v68`, the arguments as launched.
-/
import proofs.«139325_j49752901156905_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v68) = W11 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v68 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Whole

end
-- ==== Proof.Region0.lean ====
/-
  Region 0 of the idealized kernel: one dense layer, tiled over 50 blocks of 2000 rows.

  At grid point t the body reads rows 2000·t … 2000·t + 1999 of its [100000, 512] operand, the whole [512, 128] weight array and the
  whole bias row, and stores the block's product plus the bias into rows 2000·t … of the [100000, 128] result.  The blocks tile
  the result, so after the region the result array is `affine` of the three arrays as the region found them, whatever
  those contents are (they are a parameter here).
-/
import proofs.«139325_j49752901156905_1_alg».proof.Proof.Gen.KernelIdeal.Frame
import proofs.«139325_j49752901156905_1_alg».proof.Proof.Dense
import Idealize.ShloMosaic.Lib.Pipeline.Value

set_option maxRecDepth 16384

noncomputable section

namespace Cert.KernelIdeal.Region0

open Cert.KernelIdeal Cert.KernelIdeal.Gen Cert.DenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's dimension numbers are the plain ones of a [2000, 512] by [512, 128] product. -/
theorem rec_eq : dot_S2000x512_S512x128_S2000x128_1_0_0_1_n_n = DotDims.plain 2000 512 128 := rfl

/-- The body's stored value is `affine` of the three blocks it loaded. -/
theorem pay_eq (x0 : Vec Ideal S2000x512 .f32) (x1 : Vec Ideal S512x128 .f32) (x2 : Vec Ideal S128 .f32) :
    k0_pay1 x0 x1 x2 = affine (M := 2000) (K := 512) (N := 128) x0 x1 x2 := by
  unfold k0_pay1
  rw [shapeCast_self, rec_eq]
  exact block_eq none x0 x1 x2 _ _ _

/-- So is what the body leaves in the output window's buffer. -/
theorem out_eq (x0 : Vec Ideal S2000x512 .f32) (x1 : Vec Ideal S512x128 .f32) (x2 : Vec Ideal S128 .f32) :
    out0_3 x0 x1 x2 = affine (M := 2000) (K := 512) (N := 128) x0 x1 x2 := by
  unfold out0_3
  rw [View.canon_unit_zero hz2]
  simp only [View.ld_unit_zero (S := S2000x512) hz2, View.ld_unit_zero (S := S512x128) hz2, View.ld_unit_zero (S := S128) hz1]
  exact pay_eq x0 x1 x2

/-- The printed index maps over the grid: the row-blocked windows are at block (t, 0), the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Window 0's block at point t is rows 2000·t … of its array. -/
theorem blkX (c : Dev nD) (t : Fin cfg0.N) (x : S2000x512.Idx) (j : S100000x512.Idx)
    (h0 : (j 0).val = 2000 * t.val + (x 0).val) (h1 : (j 1).val = (x 1).val) :
    (iblk0 V c 0 t : Vec Ideal S2000x512 .f32) x = (V c main_arg0 : S100000x512.Idx → Ideal .f32) j := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * (x 0).val = (j 0).val; rw [e0, h0]; omega
  | ⟨1, _⟩ => show win0_0.index t (1 : Fin 2) * 512 + 1 * (x 1).val = (j 1).val; rw [e1, h1]; omega

/-- Window 1's block at every point is the whole weight array. -/
theorem blkW (c : Dev nD) (t : Fin cfg0.N) : (iblk0 V c 1 t : Vec Ideal S512x128 .f32) = (V c main_arg2 : S512x128.Idx → Ideal .f32) := by
  obtain ⟨-, -, e0, e1, -⟩ := idx_facts t
  funext x
  unfold iblk0
  rw [View.read_apply]
  show V c main_arg2 _ = V c main_arg2 _
  refine congrArg (V c main_arg2) (funext fun a => Fin.ext ?_)
  match a with
  | ⟨0, _⟩ => show win0_1.index t (0 : Fin 2) * 512 + 1 * (x 0).val = (x 0).val; rw [e0]; omega
  | ⟨1, _⟩ => show win0_1.index t (1 : Fin 2) * 128 + 1 * (x 1).val = (x 1).val; rw [e1]; omega

/-- Window 2's block at every point is the whole bias row. -/
theorem blkB (c : Dev nD) (t : Fin cfg0.N) : (iblk0 V c 2 t : Vec Ideal S128 .f32) = (V c main_v30 : S128.Idx → Ideal .f32) := by
  obtain ⟨-, -, -, -, e0, -⟩ := idx_facts t
  funext x
  unfold iblk0
  rw [View.read_apply]
  show V c main_v30 _ = V c main_v30 _
  refine congrArg (V c main_v30) (funext fun a => Fin.ext ?_)
  match a with
  | ⟨0, _⟩ => show win0_2.index t (0 : Fin 1) * 128 + 1 * (x 0).val = (x 0).val; rw [e0]; omega

/-- WHAT POINT t WRITES BACK is block t of `affine` of the arrays as the region finds them. -/
theorem flushed_eq (c : Dev nD) (t : Fin cfg0.N) :
    (dat0 V c).flushed 3 t = ((cfg0.win 3).blk t).view.read (Elt Ideal)
      (affine (M := 100000) (K := 512) (N := 128) (V c main_arg0) (V c main_arg2) (V c main_v30)) := by
  show (cfg0.win 3).cut (grid0.coords t) ((dat0 V c).after 3 t) = _
  rw [after0_3, out_eq, blkW V c t, blkB V c t]
  obtain ⟨-, -, -, -, -, e0, e1⟩ := idx_facts t
  funext y
  rw [View.read_apply]
  refine affine_at_block (M := 100000) (K := 512) (N := 128) (R := 2000) (V c main_arg0) (V c main_arg2) (V c main_v30)
    (iblk0 V c 0 t) y (((cfg0.win 3).blk t).view.emb y) ?_ fun k => ?_
  · show win0_3.index t (1 : Fin 2) * 128 + 1 * (y 1).val = (y 1).val
    rw [e1]; omega
  · refine blkX V c t _ _ ?_ rfl
    show win0_3.index t (0 : Fin 2) * 2000 + 1 * (y 0).val = 2000 * t.val + (y 0).val
    rw [e0]; omega

/-- An index of the result array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v31).slice (win0_3.rect t)).set ↔ _
  rw [View.set_slice_whole, Rect.mem_set_unit]
  exact Iff.rfl

/-- The blocks tile the result: row r is in the block of point r / 2000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, e0, e1⟩ := idx_facts ⟨(i 0).val / 2000, ht⟩
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e1]; omega

/-- THE RESULT ARRAY after the region: `affine` of the operand, the weights and the bias as the region found them. -/
theorem arr_eq (c : Dev nD) :
    (dat0 V c).arrAt 3 cfg0.N = affine (M := 100000) (K := 512) (N := 128) (V c main_arg0) (V c main_arg2) (V c main_v30) :=
  (dat0 V c).arrAt_eq_of_cover 3 _ (fun t _ => flushed_eq V c t) cover

end Cert.KernelIdeal.Region0

end
-- ==== Proof.Region1.lean ====
/-
  Region 1 of the idealized kernel: one dense layer, tiled over 50 blocks of 2000 rows.

  At grid point t the body reads rows 2000·t … 2000·t + 1999 of its [100000, 128] operand, the whole [128, 64] weight array and the
  whole bias row, and stores the block's product plus the bias into rows 2000·t … of the [100000, 64] result.  The blocks tile
  the result, so after the region the result array is `affine` of the three arrays as the region found them, whatever
  those contents are (they are a parameter here).
-/
import proofs.«139325_j49752901156905_1_alg».proof.Proof.Gen.KernelIdeal.Frame
import proofs.«139325_j49752901156905_1_alg».proof.Proof.Dense
import Idealize.ShloMosaic.Lib.Pipeline.Value

set_option maxRecDepth 16384

noncomputable section

namespace Cert.KernelIdeal.Region1

open Cert.KernelIdeal Cert.KernelIdeal.Gen Cert.DenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's dimension numbers are the plain ones of a [2000, 128] by [128, 64] product. -/
theorem rec_eq : dot_S2000x128_S128x64_S2000x64_1_0_0_1_n_n = DotDims.plain 2000 128 64 := rfl

/-- The body's stored value is `affine` of the three blocks it loaded. -/
theorem pay_eq (x0 : Vec Ideal S2000x128 .f32) (x1 : Vec Ideal S128x64 .f32) (x2 : Vec Ideal S64 .f32) :
    k1_pay1 x0 x1 x2 = affine (M := 2000) (K := 128) (N := 64) x0 x1 x2 := by
  unfold k1_pay1
  rw [shapeCast_self, shapeCast_self, rec_eq]
  exact block_eq none x0 x1 x2 _ _ _

/-- So is what the body leaves in the output window's buffer. -/
theorem out_eq (x0 : Vec Ideal S2000x128 .f32) (x1 : Vec Ideal S128x64 .f32) (x2 : Vec Ideal S64 .f32) :
    out1_3 x0 x1 x2 = affine (M := 2000) (K := 128) (N := 64) x0 x1 x2 := by
  unfold out1_3
  rw [View.canon_unit_zero hz2]
  simp only [View.ld_unit_zero (S := S2000x128) hz2, View.ld_unit_zero (S := S128x64) hz2, View.ld_unit_zero (S := S64) hz1]
  exact pay_eq x0 x1 x2

/-- The printed index maps over the grid: the row-blocked windows are at block (t, 0), the others at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Window 0's block at point t is rows 2000·t … of its array. -/
theorem blkX (c : Dev nD) (t : Fin cfg1.N) (x : S2000x128.Idx) (j : S100000x128.Idx)
    (h0 : (j 0).val = 2000 * t.val + (x 0).val) (h1 : (j 1).val = (x 1).val) :
    (iblk1 V c 0 t : Vec Ideal S2000x128 .f32) x = (V c main_v48 : S100000x128.Idx → Ideal .f32) j := by
  obtain ⟨e0, e1, -⟩ := idx_facts t
  unfold iblk1
  rw [View.read_apply]
  show V c main_v48 _ = V c main_v48 _
  refine congrArg (V c main_v48) (funext fun a => Fin.ext ?_)
  match a with
  | ⟨0, _⟩ => show win1_0.index t (0 : Fin 2) * 2000 + 1 * (x 0).val = (j 0).val; rw [e0, h0]; omega
  | ⟨1, _⟩ => show win1_0.index t (1 : Fin 2) * 128 + 1 * (x 1).val = (j 1).val; rw [e1, h1]; omega

/-- Window 1's block at every point is the whole weight array. -/
theorem blkW (c : Dev nD) (t : Fin cfg1.N) : (iblk1 V c 1 t : Vec Ideal S128x64 .f32) = (V c main_arg4 : S128x64.Idx → Ideal .f32) := by
  obtain ⟨-, -, e0, e1, -⟩ := idx_facts t
  funext x
  unfold iblk1
  rw [View.read_apply]
  show V c main_arg4 _ = V c main_arg4 _
  refine congrArg (V c main_arg4) (funext fun a => Fin.ext ?_)
  match a with
  | ⟨0, _⟩ => show win1_1.index t (0 : Fin 2) * 128 + 1 * (x 0).val = (x 0).val; rw [e0]; omega
  | ⟨1, _⟩ => show win1_1.index t (1 : Fin 2) * 64 + 1 * (x 1).val = (x 1).val; rw [e1]; omega

/-- Window 2's block at every point is the whole bias row. -/
theorem blkB (c : Dev nD) (t : Fin cfg1.N) : (iblk1 V c 2 t : Vec Ideal S64 .f32) = (V c main_v49 : S64.Idx → Ideal .f32) := by
  obtain ⟨-, -, -, -, e0, -⟩ := idx_facts t
  funext x
  unfold iblk1
  rw [View.read_apply]
  show V c main_v49 _ = V c main_v49 _
  refine congrArg (V c main_v49) (funext fun a => Fin.ext ?_)
  match a with
  | ⟨0, _⟩ => show win1_2.index t (0 : Fin 1) * 64 + 1 * (x 0).val = (x 0).val; rw [e0]; omega

/-- WHAT POINT t WRITES BACK is block t of `affine` of the arrays as the region finds them. -/
theorem flushed_eq (c : Dev nD) (t : Fin cfg1.N) :
    (dat1 V c).flushed 3 t = ((cfg1.win 3).blk t).view.read (Elt Ideal)
      (affine (M := 100000) (K := 128) (N := 64) (V c main_v48) (V c main_arg4) (V c main_v49)) := by
  show (cfg1.win 3).cut (grid1.coords t) ((dat1 V c).after 3 t) = _
  rw [after1_3, out_eq, blkW V c t, blkB V c t]
  obtain ⟨-, -, -, -, -, e0, e1⟩ := idx_facts t
  funext y
  rw [View.read_apply]
  refine affine_at_block (M := 100000) (K := 128) (N := 64) (R := 2000) (V c main_v48) (V c main_arg4) (V c main_v49)
    (iblk1 V c 0 t) y (((cfg1.win 3).blk t).view.emb y) ?_ fun k => ?_
  · show win1_3.index t (1 : Fin 2) * 64 + 1 * (y 1).val = (y 1).val
    rw [e1]; omega
  · refine blkX V c t _ _ ?_ rfl
    show win1_3.index t (0 : Fin 2) * 2000 + 1 * (y 0).val = 2000 * t.val + (y 0).val
    rw [e0]; omega

/-- An index of the result array is in point t's block iff each coordinate is in the block's range on its axis. -/
theorem mem_blk (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v50).slice (win1_3.rect t)).set ↔ _
  rw [View.set_slice_whole, Rect.mem_set_unit]
  exact Iff.rfl

/-- The blocks tile the result: row r is in the block of point r / 2000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  have ht : (i 0).val / 2000 < cfg1.N := by rw [hN]; omega
  obtain ⟨-, -, -, -, -, e0, e1⟩ := idx_facts ⟨(i 0).val / 2000, ht⟩
  refine ⟨⟨(i 0).val / 2000, ht⟩, flush1_3 _, ?_⟩
  rw [mem_blk]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ (1 : Fin 2) * 64 ≤ (i 1).val ∧ (i 1).val < win1_3.index ⟨(i 0).val / 2000, ht⟩ (1 : Fin 2) * 64 + 64
    rw [e1]; omega

/-- THE RESULT ARRAY after the region: `affine` of the operand, the weights and the bias as the region found them. -/
theorem arr_eq (c : Dev nD) :
    (dat1 V c).arrAt 3 cfg1.N = affine (M := 100000) (K := 128) (N := 64) (V c main_v48) (V c main_arg4) (V c main_v49) :=
  (dat1 V c).arrAt_eq_of_cover 3 _ (fun t _ => flushed_eq V c t) cover

end Cert.KernelIdeal.Region1

end
-- ==== Proof.Region2.lean ====
/-
  Region 2 of the idealized kernel: one dense layer, tiled over 50 blocks of 2000 rows.

  At grid point t the body reads rows 2000·t … 2000·t + 1999 of its [100000, 64] operand, the whole [64, 10] weight array and the
  whole bias row, and stores the block's product plus the bias into rows 2000·t … of the [100000, 10] result.  The blocks tile
  the result, so after the region the result array is `affine` of the three arrays as the region found them, whatever
  those contents are (they are a parameter here).
-/
import proofs.«139325_j49752901156905_1_alg».proof.Proof.Gen.KernelIdeal.Frame
import proofs.«139325_j49752901156905_1_alg».proof.Proof.Dense
import Idealize.ShloMosaic.Lib.Pipeline.Value

set_option maxRecDepth 16384

noncomputable section

namespace Cert.KernelIdeal.Region2

open Cert.KernelIdeal Cert.KernelIdeal.Gen Cert.DenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's dimension numbers are the plain ones of a [2000, 64] by [64, 10] product. -/
theorem rec_eq : dot_S2000x64_S64x10_S2000x10_1_0_0_1_n_n = DotDims.plain 2000 64 10 := rfl

/-- The body's stored value is `affine` of the three blocks it loaded. -/
theorem pay_eq (x0 : Vec Ideal S2000x64 .f32) (x1 : Vec Ideal S64x10 .f32) (x2 : Vec Ideal S10 .f32) :
    k2_pay1 x0 x1 x2 = affine (M := 2000) (K := 64) (N := 10) x0 x1 x2 := by
  unfold k2_pay1
  rw [shapeCast_self, rec_eq]
  exact block_eq none x0 x1 x2 _ _ _

/-- So is what the body leaves in the output window's buffer. -/
theorem out_eq (x0 : Vec Ideal S2000x64 .f32) (x1 : Vec Ideal S64x10 .f32) (x2 : Vec Ideal S10 .f32) :
    out2_3 x0 x1 x2 = affine (M := 2000) (K := 64) (N := 10) x0 x1 x2 := by
  unfold out2_3
  rw [View.canon_unit_zero hz2]
  simp only [View.ld_unit_zero (S := S2000x64) hz2, View.ld_unit_zero (S := S64x10) hz2, View.ld_unit_zero (S := S10) hz1]
  exact pay_eq x0 x1 x2

/-- The printed index maps over the grid: the row-blocked windows are at block (t, 0), the others at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- Window 0's block at point t is rows 2000·t … of its array. -/
theorem blkX (c : Dev nD) (t : Fin cfg2.N) (x : S2000x64.Idx) (j : S100000x64.Idx)
    (h0 : (j 0).val = 2000 * t.val + (x 0).val) (h1 : (j 1).val = (x 1).val) :
    (iblk2 V c 0 t : Vec Ideal S2000x64 .f32) x = (V c main_v67 : S100000x64.Idx → Ideal .f32) j := by
  obtain ⟨e0, e1, -⟩ := idx_facts t
  unfold iblk2
  rw [View.read_apply]
  show V c main_v67 _ = V c main_v67 _
  refine congrArg (V c main_v67) (funext fun a => Fin.ext ?_)
  match a with
  | ⟨0, _⟩ => show win2_0.index t (0 : Fin 2) * 2000 + 1 * (x 0).val = (j 0).val; rw [e0, h0]; omega
  | ⟨1, _⟩ => show win2_0.index t (1 : Fin 2) * 64 + 1 * (x 1).val = (j 1).val; rw [e1, h1]; omega

/-- Window 1's block at every point is the whole weight array. -/
theorem blkW (c : Dev nD) (t : Fin cfg2.N) : (iblk2 V c 1 t : Vec Ideal S64x10 .f32) = (V c main_arg6 : S64x10.Idx → Ideal .f32) := by
  obtain ⟨-, -, e0, e1, -⟩ := idx_facts t
  funext x
  unfold iblk2
  rw [View.read_apply]
  show V c main_arg6 _ = V c main_arg6 _
  refine congrArg (V c main_arg6) (funext fun a => Fin.ext ?_)
  match a with
  | ⟨0, _⟩ => show win2_1.index t (0 : Fin 2) * 64 + 1 * (x 0).val = (x 0).val; rw [e0]; omega
  | ⟨1, _⟩ => show win2_1.index t (1 : Fin 2) * 10 + 1 * (x 1).val = (x 1).val; rw [e1]; omega

/-- Window 2's block at every point is the whole bias row. -/
theorem blkB (c : Dev nD) (t : Fin cfg2.N) : (iblk2 V c 2 t : Vec Ideal S10 .f32) = (V c main_arg7 : S10.Idx → Ideal .f32) := by
  obtain ⟨-, -, -, -, e0, -⟩ := idx_facts t
  funext x
  unfold iblk2
  rw [View.read_apply]
  show V c main_arg7 _ = V c main_arg7 _
  refine congrArg (V c main_arg7) (funext fun a => Fin.ext ?_)
  match a with
  | ⟨0, _⟩ => show win2_2.index t (0 : Fin 1) * 10 + 1 * (x 0).val = (x 0).val; rw [e0]; omega

/-- WHAT POINT t WRITES BACK is block t of `affine` of the arrays as the region finds them. -/
theorem flushed_eq (c : Dev nD) (t : Fin cfg2.N) :
    (dat2 V c).flushed 3 t = ((cfg2.win 3).blk t).view.read (Elt Ideal)
      (affine (M := 100000) (K := 64) (N := 10) (V c main_v67) (V c main_arg6) (V c main_arg7)) := by
  show (cfg2.win 3).cut (grid2.coords t) ((dat2 V c).after 3 t) = _
  rw [after2_3, out_eq, blkW V c t, blkB V c t]
  obtain ⟨-, -, -, -, -, e0, e1⟩ := idx_facts t
  funext y
  rw [View.read_apply]
  refine affine_at_block (M := 100000) (K := 64) (N := 10) (R := 2000) (V c main_v67) (V c main_arg6) (V c main_arg7)
    (iblk2 V c 0 t) y (((cfg2.win 3).blk t).view.emb y) ?_ fun k => ?_
  · show win2_3.index t (1 : Fin 2) * 10 + 1 * (y 1).val = (y 1).val
    rw [e1]; omega
  · refine blkX V c t _ _ ?_ rfl
    show win2_3.index t (0 : Fin 2) * 2000 + 1 * (y 0).val = 2000 * t.val + (y 0).val
    rw [e0]; omega

/-- An index of the result array is in point t's block iff each coordinate is in the block's range on its axis. -/
theorem mem_blk (t : Fin cfg2.N) (i : S100000x10.Idx) :
    i ∈ ((cfg2.win 3).blk t).view.set ↔ ∀ a : Fin 2, win2_3.index t a * S2000x10.size a ≤ (i a).val ∧ (i a).val < win2_3.index t a * S2000x10.size a + S2000x10.size a := by
  show i ∈ ((View.whole main_v68).slice (win2_3.rect t)).set ↔ _
  rw [View.set_slice_whole, Rect.mem_set_unit]
  exact Iff.rfl

/-- The blocks tile the result: row r is in the block of point r / 2000. -/
theorem cover (i : S100000x10.Idx) : ∃ t : Fin cfg2.N, (cfg2.win 3).flush t = true ∧ i ∈ ((cfg2.win 3).blk t).view.set := by
  have hi0 : (i 0).val < 100000 := (i 0).isLt
  have hi1 : (i 1).val < 10 := (i 1).isLt
  have hN : cfg2.N = 50 := N_2
  have ht : (i 0).val / 2000 < cfg2.N := by rw [hN]; omega
  obtain ⟨-, -, -, -, -, e0, e1⟩ := idx_facts ⟨(i 0).val / 2000, ht⟩
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, ht⟩ (1 : Fin 2) * 10 ≤ (i 1).val ∧ (i 1).val < win2_3.index ⟨(i 0).val / 2000, ht⟩ (1 : Fin 2) * 10 + 10
    rw [e1]; omega

/-- THE RESULT ARRAY after the region: `affine` of the operand, the weights and the bias as the region found them. -/
theorem arr_eq (c : Dev nD) :
    (dat2 V c).arrAt 3 cfg2.N = affine (M := 100000) (K := 64) (N := 10) (V c main_v67) (V c main_arg6) (V c main_arg7) :=
  (dat2 V c).arrAt_eq_of_cover 3 _ (fun t _ => flushed_eq V c t) cover

end Cert.KernelIdeal.Region2

end
-- ==== Proof.Chase.lean ====
/-
  The idealized kernel's result as the network of its arguments.

  The buffer contents at the segment boundaries are followed from the launch memory to the return.  Before region 0 the
  host computes the two index lists with self loops, the per-entry norm and a bias row of zeros; a stretch of host
  operations leaves every buffer it does not write as it was, and a region leaves every buffer that is not one of its
  arrays as it was, so those values are still there when later stretches read them.  Each region leaves in its result
  array `affine` of its three input arrays as it found them (Region0 / Region1 / Region2), and the stretch after regions 0
  and 1 is one aggregation.  Composed: the result buffer ends at `Model.forward` of the arguments.
-/
import proofs.«139325_j49752901156905_1_alg».proof.Proof.KernelRun
import proofs.«139325_j49752901156905_1_alg».proof.Proof.Region0
import proofs.«139325_j49752901156905_1_alg».proof.Proof.Region1
import proofs.«139325_j49752901156905_1_alg».proof.Proof.Region2
import proofs.«139325_j49752901156905_1_alg».proof.Proof.Model
import Idealize.ShloMosaic.Lib.StableHlo.Run

set_option maxRecDepth 16384

noncomputable section

namespace Cert.KernelIdeal.Whole

open Cert.KernelIdeal Cert.KernelIdeal.Gen Cert.KernelIdeal.Model Cert.DenseLayer
open Idealize.ShloMosaic Idealize.ShloMosaic.TcCoe Idealize.SL.Sem Idealize.ShloMosaic.StableHlo

section AnyFloats

variable {F : FTy → Type} [FloatOps F]
variable (m : (ℓ : Loc nD τ sig) → Buf (Elt F) ℓ) (ρ : Dev nD → PrngReg)

/-! # The contents at the boundaries, for any reading of the floats

The host stretches only move, select, gather, scatter and combine values; what they leave is the same term of the
arguments and of each region's result array however a float is read. -/

/-- A two-piece concatenation of equal pieces. -/
theorem concat_pair_eq {α : Type} {t s₁ s₂ : Shape} (a : Fin t.rank) (x₁ x₁' : s₁.Idx → α) (x₂ x₂' : s₂.Idx → α)
    (h : Shape.Concatenates [s₁, s₂] t a) (e1 : x₁ = x₁') (e2 : x₂ = x₂') :
    concatenate t a [⟨s₁, x₁⟩, ⟨s₂, x₂⟩] h = concatenate t a [⟨s₁, x₁'⟩, ⟨s₂, x₂'⟩] h := by
  subst e1 e2; rfl

/-! ## After the first stretch: the index lists and the degrees -/

theorem W1_arg0 (c : Dev nD) : W1 m ρ c (Proc.devRef .tc main_arg0) = m ((c : Thread nD τ).loc main_arg0) := by
  dsimp only [W1, hostOps0]; after_results_simp
  try rfl

theorem W1_arg2 (c : Dev nD) : W1 m ρ c (Proc.devRef .tc main_arg2) = m ((c : Thread nD τ).loc main_arg2) := by
  dsimp only [W1, hostOps0]; after_results_simp
  try rfl

theorem W1_arg3 (c : Dev nD) : W1 m ρ c (Proc.devRef .tc main_arg3) = m ((c : Thread nD τ).loc main_arg3) := by
  dsimp only [W1, hostOps0]; after_results_simp
  try rfl

theorem W1_arg4 (c : Dev nD) : W1 m ρ c (Proc.devRef .tc main_arg4) = m ((c : Thread nD τ).loc main_arg4) := by
  dsimp only [W1, hostOps0]; after_results_simp
  try rfl

theorem W1_arg5 (c : Dev nD) : W1 m ρ c (Proc.devRef .tc main_arg5) = m ((c : Thread nD τ).loc main_arg5) := by
  dsimp only [W1, hostOps0]; after_results_simp
  try rfl

theorem W1_arg6 (c : Dev nD) : W1 m ρ c (Proc.devRef .tc main_arg6) = m ((c : Thread nD τ).loc main_arg6) := by
  dsimp only [W1, hostOps0]; after_results_simp
  try rfl

theorem W1_arg7 (c : Dev nD) : W1 m ρ c (Proc.devRef .tc main_arg7) = m ((c : Thread nD τ).loc main_arg7) := by
  dsimp only [W1, hostOps0]; after_results_simp
  try rfl

/-- The sources with self loops: a concatenation, whose two pieces are read one by one. -/
theorem W1_v3 (c : Dev nD) : W1 m ρ c (Proc.devRef .tc main_v3) = srcIdx (m ((c : Thread nD τ).loc main_arg1)) := by
  dsimp only [W1, hostOps0]; after_results_simp
  unfold srcIdx
  refine concat_pair_eq _ _ _ _ _ _ ?_ ?_ <;> (after_results_simp <;> rfl)

theorem W1_v6 (c : Dev nD) : W1 m ρ c (Proc.devRef .tc main_v6) = dstIdx (m ((c : Thread nD τ).loc main_arg1)) := by
  dsimp only [W1, hostOps0]; after_results_simp
  unfold dstIdx
  refine concat_pair_eq _ _ _ _ _ _ ?_ ?_ <;> (after_results_simp <;> rfl)

theorem W1_v12 (c : Dev nD) : W1 m ρ c (Proc.devRef .tc main_v12) = cmpf (F := F) .ogt (degree (m ((c : Thread nD τ).loc main_arg1))) (broadcastInDim S100000 ![] bcast_S_S100000 (constant (F := F) S_ .f32 0x00000000#32)) := by
  dsimp only [W1, hostOps0]; after_results_simp
  unfold degree dstIdx
  rw [concat_pair_eq (x₁' := (shapeCast _ (extractStridedSlice S1x1600000 ![1, 0] (m ((c : Thread nD τ).loc main_arg1)) slices_S2x1600000_S1x1600000_1_0) shapeCasts_S1x1600000_S1600000)) (x₂' := iotaInDim S100000 32 0)]
  all_goals (after_results_simp <;> rfl)

theorem W1_v13 (c : Dev nD) : W1 m ρ c (Proc.devRef .tc main_v13) = Host.rsqrt (degree (F := F) (m ((c : Thread nD τ).loc main_arg1))) := by
  dsimp only [W1, hostOps0]; after_results_simp
  unfold degree dstIdx
  rw [concat_pair_eq (x₁' := (shapeCast _ (extractStridedSlice S1x1600000 ![1, 0] (m ((c : Thread nD τ).loc main_arg1)) slices_S2x1600000_S1x1600000_1_0) shapeCasts_S1x1600000_S1600000)) (x₂' := iotaInDim S100000 32 0)]
  all_goals (after_results_simp <;> rfl)

theorem W1_cst_2 (c : Dev nD) : W1 m ρ c (Proc.devRef .tc main_cst_2) = constant (F := F) S_ .f32 0x00000000#32 := by
  dsimp only [W1, hostOps0]; after_results_simp
  try rfl

/-! ## At region 0's entry -/

set_option hygiene false in
/-- The two later stretches before region 0 read over the contents the first stretch left, taken as a variable. -/
local macro "stretch0_tail" : tactic =>
  `(tactic| (dsimp only [W3, W2]; generalize W1 m ρ c = V1 at *; dsimp only [hostOps0_1, hostOps0_2]; after_results_simp))

theorem W3_arg0 (c : Dev nD) : W3 m ρ c (Proc.devRef .tc main_arg0) = m ((c : Thread nD τ).loc main_arg0) := by
  have e := W1_arg0 m ρ c
  stretch0_tail
  exact e

theorem W3_arg2 (c : Dev nD) : W3 m ρ c (Proc.devRef .tc main_arg2) = m ((c : Thread nD τ).loc main_arg2) := by
  have e := W1_arg2 m ρ c
  stretch0_tail
  exact e

theorem W3_arg3 (c : Dev nD) : W3 m ρ c (Proc.devRef .tc main_arg3) = m ((c : Thread nD τ).loc main_arg3) := by
  have e := W1_arg3 m ρ c
  stretch0_tail
  exact e

theorem W3_arg4 (c : Dev nD) : W3 m ρ c (Proc.devRef .tc main_arg4) = m ((c : Thread nD τ).loc main_arg4) := by
  have e := W1_arg4 m ρ c
  stretch0_tail
  exact e

theorem W3_arg5 (c : Dev nD) : W3 m ρ c (Proc.devRef .tc main_arg5) = m ((c : Thread nD τ).loc main_arg5) := by
  have e := W1_arg5 m ρ c
  stretch0_tail
  exact e

theorem W3_arg6 (c : Dev nD) : W3 m ρ c (Proc.devRef .tc main_arg6) = m ((c : Thread nD τ).loc main_arg6) := by
  have e := W1_arg6 m ρ c
  stretch0_tail
  exact e

theorem W3_arg7 (c : Dev nD) : W3 m ρ c (Proc.devRef .tc main_arg7) = m ((c : Thread nD τ).loc main_arg7) := by
  have e := W1_arg7 m ρ c
  stretch0_tail
  exact e

theorem W3_v3 (c : Dev nD) : W3 m ρ c (Proc.devRef .tc main_v3) = srcIdx (m ((c : Thread nD τ).loc main_arg1)) := by
  have e := W1_v3 m ρ c
  stretch0_tail
  exact e

theorem W3_v6 (c : Dev nD) : W3 m ρ c (Proc.devRef .tc main_v6) = dstIdx (m ((c : Thread nD τ).loc main_arg1)) := by
  have e := W1_v6 m ρ c
  stretch0_tail
  exact e

theorem W3_v30 (c : Dev nD) : W3 m ρ c (Proc.devRef .tc main_v30) = zeros128 (F := F) := by
  stretch0_tail
  rfl

/-- The per-entry norm, from the degrees and the two index lists the first stretch left. -/
theorem W3_v29 (c : Dev nD) : W3 m ρ c (Proc.devRef .tc main_v29) = edgeNorm (F := F) (m ((c : Thread nD τ).loc main_arg1)) := by
  have e3 := W1_v3 m ρ c
  have e6 := W1_v6 m ρ c
  have e12 := W1_v12 m ρ c
  have e13 := W1_v13 m ρ c
  have ec := W1_cst_2 m ρ c
  stretch0_tail
  rw [e3, e6, e12, e13, ec]
  rfl

/-! ## Across region 0, the stretch after it, region 1, and the stretch after that -/

theorem W4_v3 (c : Dev nD) : W4 m ρ c (Proc.devRef .tc main_v3) = srcIdx (m ((c : Thread nD τ).loc main_arg1)) :=
  (W4_of_ne m ρ c main_v3 (by decide)).trans (W3_v3 m ρ c)

theorem W4_v6 (c : Dev nD) : W4 m ρ c (Proc.devRef .tc main_v6) = dstIdx (m ((c : Thread nD τ).loc main_arg1)) :=
  (W4_of_ne m ρ c main_v6 (by decide)).trans (W3_v6 m ρ c)

theorem W4_v29 (c : Dev nD) : W4 m ρ c (Proc.devRef .tc main_v29) = edgeNorm (F := F) (m ((c : Thread nD τ).loc main_arg1)) :=
  (W4_of_ne m ρ c main_v29 (by decide)).trans (W3_v29 m ρ c)

theorem W4_arg3 (c : Dev nD) : W4 m ρ c (Proc.devRef .tc main_arg3) = m ((c : Thread nD τ).loc main_arg3) :=
  (W4_of_ne m ρ c main_arg3 (by decide)).trans (W3_arg3 m ρ c)

theorem W4_arg4 (c : Dev nD) : W4 m ρ c (Proc.devRef .tc main_arg4) = m ((c : Thread nD τ).loc main_arg4) :=
  (W4_of_ne m ρ c main_arg4 (by decide)).trans (W3_arg4 m ρ c)

theorem W4_arg5 (c : Dev nD) : W4 m ρ c (Proc.devRef .tc main_arg5) = m ((c : Thread nD τ).loc main_arg5) :=
  (W4_of_ne m ρ c main_arg5 (by decide)).trans (W3_arg5 m ρ c)

theorem W4_arg6 (c : Dev nD) : W4 m ρ c (Proc.devRef .tc main_arg6) = m ((c : Thread nD τ).loc main_arg6) :=
  (W4_of_ne m ρ c main_arg6 (by decide)).trans (W3_arg6 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W7_v3 (c : Dev nD) : W7 m ρ c (Proc.devRef .tc main_v3) = srcIdx (m ((c : Thread nD τ).loc main_arg1)) := by
  dsimp only [W7, W6, W5, hostOps1, hostOps1_1, hostOps1_2]; after_results_simp
  exact W4_v3 m ρ c

theorem W7_v6 (c : Dev nD) : W7 m ρ c (Proc.devRef .tc main_v6) = dstIdx (m ((c : Thread nD τ).loc main_arg1)) := by
  dsimp only [W7, W6, W5, hostOps1, hostOps1_1, hostOps1_2]; after_results_simp
  exact W4_v6 m ρ c

theorem W7_v29 (c : Dev nD) : W7 m ρ c (Proc.devRef .tc main_v29) = edgeNorm (F := F) (m ((c : Thread nD τ).loc main_arg1)) := by
  dsimp only [W7, W6, W5, hostOps1, hostOps1_1, hostOps1_2]; after_results_simp
  exact W4_v29 m ρ c

theorem W7_arg4 (c : Dev nD) : W7 m ρ c (Proc.devRef .tc main_arg4) = m ((c : Thread nD τ).loc main_arg4) := by
  dsimp only [W7, W6, W5, hostOps1, hostOps1_1, hostOps1_2]; after_results_simp
  exact W4_arg4 m ρ c

theorem W7_arg5 (c : Dev nD) : W7 m ρ c (Proc.devRef .tc main_arg5) = m ((c : Thread nD τ).loc main_arg5) := by
  dsimp only [W7, W6, W5, hostOps1, hostOps1_1, hostOps1_2]; after_results_simp
  exact W4_arg5 m ρ c

theorem W7_arg6 (c : Dev nD) : W7 m ρ c (Proc.devRef .tc main_arg6) = m ((c : Thread nD τ).loc main_arg6) := by
  dsimp only [W7, W6, W5, hostOps1, hostOps1_1, hostOps1_2]; after_results_simp
  exact W4_arg6 m ρ c

theorem W7_arg7 (c : Dev nD) : W7 m ρ c (Proc.devRef .tc main_arg7) = m ((c : Thread nD τ).loc main_arg7) := by
  dsimp only [W7, W6, W5, hostOps1, hostOps1_1, hostOps1_2]; after_results_simp
  exact W4_arg7 m ρ c

theorem W7_v49 (c : Dev nD) : W7 m ρ c (Proc.devRef .tc main_v49) = zeros64 (F := F) := by
  dsimp only [W7, W6, W5, hostOps1, hostOps1_1, hostOps1_2]; after_results_simp
  rfl

/-- Region 1's operand is one aggregation of what region 0 left in its result array. -/
theorem W7_v48 (c : Dev nD) : W7 m ρ c (Proc.devRef .tc main_v48) = layer128 (F := F) (W4 m ρ c (Proc.devRef .tc main_v31)) (m ((c : Thread nD τ).loc main_arg1)) (m ((c : Thread nD τ).loc main_arg3)) := by
  dsimp only [W7, W6, W5, hostOps1, hostOps1_1, hostOps1_2]; after_results_simp
  rw [W4_v3 m ρ c, W4_v6 m ρ c, W4_v29 m ρ c, W4_arg3 m ρ c]
  rfl

theorem W8_v3 (c : Dev nD) : W8 m ρ c (Proc.devRef .tc main_v3) = srcIdx (m ((c : Thread nD τ).loc main_arg1)) :=
  (W8_of_ne m ρ c main_v3 (by decide)).trans (W7_v3 m ρ c)

theorem W8_v6 (c : Dev nD) : W8 m ρ c (Proc.devRef .tc main_v6) = dstIdx (m ((c : Thread nD τ).loc main_arg1)) :=
  (W8_of_ne m ρ c main_v6 (by decide)).trans (W7_v6 m ρ c)

theorem W8_v29 (c : Dev nD) : W8 m ρ c (Proc.devRef .tc main_v29) = edgeNorm (F := F) (m ((c : Thread nD τ).loc main_arg1)) :=
  (W8_of_ne m ρ c main_v29 (by decide)).trans (W7_v29 m ρ c)

theorem W8_arg5 (c : Dev nD) : W8 m ρ c (Proc.devRef .tc main_arg5) = m ((c : Thread nD τ).loc main_arg5) :=
  (W8_of_ne m ρ c main_arg5 (by decide)).trans (W7_arg5 m ρ c)

theorem W8_arg6 (c : Dev nD) : W8 m ρ c (Proc.devRef .tc main_arg6) = m ((c : Thread nD τ).loc main_arg6) :=
  (W8_of_ne m ρ c main_arg6 (by decide)).trans (W7_arg6 m ρ c)

theorem W8_arg7 (c : Dev nD) : W8 m ρ c (Proc.devRef .tc main_arg7) = m ((c : Thread nD τ).loc main_arg7) :=
  (W8_of_ne m ρ c main_arg7 (by decide)).trans (W7_arg7 m ρ c)

theorem W10_arg6 (c : Dev nD) : W10 m ρ c (Proc.devRef .tc main_arg6) = m ((c : Thread nD τ).loc main_arg6) := by
  dsimp only [W10, W9, hostOps2, hostOps2_1]; after_results_simp
  exact W8_arg6 m ρ c

theorem W10_arg7 (c : Dev nD) : W10 m ρ c (Proc.devRef .tc main_arg7) = m ((c : Thread nD τ).loc main_arg7) := by
  dsimp only [W10, W9, hostOps2, hostOps2_1]; after_results_simp
  exact W8_arg7 m ρ c

/-- Region 2's operand is one aggregation of what region 1 left in its result array. -/
theorem W10_v67 (c : Dev nD) : W10 m ρ c (Proc.devRef .tc main_v67) = layer64 (F := F) (W8 m ρ c (Proc.devRef .tc main_v50)) (m ((c : Thread nD τ).loc main_arg1)) (m ((c : Thread nD τ).loc main_arg5)) := by
  dsimp only [W10, W9, hostOps2, hostOps2_1]; after_results_simp
  rw [W8_v3 m ρ c, W8_v6 m ρ c, W8_v29 m ρ c, W8_arg5 m ρ c]
  rfl

end AnyFloats

section ExtendedReals

variable (m : (ℓ : Loc nD τ sig) → Buf (Elt Ideal) ℓ) (ρ : Dev nD → PrngReg)

/-! # On the extended reals: each region's result array is a dense layer -/

/-- After region 0 its result array is the first dense layer of the arguments (bias: zeros). -/
theorem W4_v31 (c : Dev nD) : W4 m ρ c (Proc.devRef .tc main_v31) = affine (M := 100000) (K := 512) (N := 128) (m ((c : Thread nD τ).loc main_arg0)) (m ((c : Thread nD τ).loc main_arg2)) (zeros128 (F := Ideal)) := by
  refine (W4_arr m ρ c 3).trans ((Region0.arr_eq (V3 m ρ) c).trans ?_)
  show affine (M := 100000) (K := 512) (N := 128) (W3 m ρ c (Proc.devRef .tc main_arg0)) (W3 m ρ c (Proc.devRef .tc main_arg2)) (W3 m ρ c (Proc.devRef .tc main_v30)) = _
  rw [W3_arg0, W3_arg2, W3_v30]

/-- After region 1 its result array is the second dense layer (bias: zeros) of the first aggregation. -/
theorem W8_v50 (c : Dev nD) : W8 m ρ c (Proc.devRef .tc main_v50) = affine (M := 100000) (K := 128) (N := 64) (layer128 (F := Ideal) (affine (M := 100000) (K := 512) (N := 128) (m ((c : Thread nD τ).loc main_arg0)) (m ((c : Thread nD τ).loc main_arg2)) (zeros128 (F := Ideal))) (m ((c : Thread nD τ).loc main_arg1)) (m ((c : Thread nD τ).loc main_arg3))) (m ((c : Thread nD τ).loc main_arg4)) (zeros64 (F := Ideal)) := by
  refine (W8_arr m ρ c 3).trans ((Region1.arr_eq (V7 m ρ) c).trans ?_)
  show affine (M := 100000) (K := 128) (N := 64) (W7 m ρ c (Proc.devRef .tc main_v48)) (W7 m ρ c (Proc.devRef .tc main_arg4)) (W7 m ρ c (Proc.devRef .tc main_v49)) = _
  rw [W7_v48, W7_arg4, W7_v49, W4_v31]

/-- THE RESULT: after region 2 the result array is the whole network of the arguments. -/
theorem result_eq (c : Dev nD) : W11 m ρ c (Proc.devRef .tc main_v68) = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 3).trans ((Region2.arr_eq (V10 m ρ) c).trans ?_)
  show affine (M := 100000) (K := 64) (N := 10) (W10 m ρ c (Proc.devRef .tc main_v67)) (W10 m ρ c (Proc.devRef .tc main_arg6)) (W10 m ρ c (Proc.devRef .tc main_arg7)) = _
  rw [W10_v67, W10_arg6, W10_arg7, W8_v50]
  rfl

/-! ## The run -/

/-- Every weakly fair execution of the idealized kernel terminates, nothing faulting, with its result at the network of the
    arguments and the arguments as launched. -/
theorem run : θ_run defs (onTc (τ := τ) (main (F := Ideal))) ⟨m, fun _ => 0, ρ⟩ (fun r => ∀ c : Dev nD,
      r.2.mem ((c.tc : Thread nD τ).loc main_v68) = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_result (F := Ideal) m ρ)

end ExtendedReals

end Cert.KernelIdeal.Whole

end
-- ==== Proof.lean ====
/-
  The certificate of a two-layer graph convolutional network with a linear head, over 100,000 nodes and 1,600,000 edges.

  Both programs compute  out = D3 (A2 (D2 (A1 (D1 x))))  where A1, A2 are the same aggregations (self loops appended to the
  edge list, the symmetric degree normalisation, a gather of source rows, a product with the per-entry norm, a
  scatter-add into destination rows, the bias, max with 0) written with the same host operations in both, and D1, D2, D3
  are dense layers.  The reference takes each dense layer with one dot_general (and adds the head's bias for D3).  The
  kernel takes each in a tiled region over 50 blocks of 2000 rows: the block's operands narrowed to a shorter float format,
  multiplied into a zero accumulator, plus a bias row — zeros for D1 and D2, the head's bias for D3.

  On the extended reals narrowing is the identity, a product into a zero accumulator and a dot_general are the same sum
  over the contraction index, an element of a product depends on one row of the left operand only (so the blocks of rows
  assemble to the whole product), and x + 0 = x.  Hence each region's result array is the reference's dense layer of the
  same operands (Dense, Region0–2), the operations between them agree term by term (Model), and the two results are one
  function of the arguments: `Model.forward`.  No step uses that the inputs are finite.

  The kernel's run is read off the generated frame (KernelRun, Chase), the reference's off its generated run (RefRunP,
  RefSide).  The claim's conjunct about the kernel's idealization is `True` as stated: the statement records that the
  ideal pass rewrote no operation, the idealized kernel being the kernel's own text read on the extended reals.
-/
import proofs.«139325_j49752901156905_1_alg».proof.Defs
import proofs.«139325_j49752901156905_1_alg».proof.Proof.Gen.Kernel
import proofs.«139325_j49752901156905_1_alg».proof.Proof.Gen.Kernel.Skeleton
import proofs.«139325_j49752901156905_1_alg».proof.Proof.Gen.Kernel.Launch
import proofs.«139325_j49752901156905_1_alg».proof.Proof.Gen.Kernel.Points
import proofs.«139325_j49752901156905_1_alg».proof.Proof.Gen.Kernel.Frame
import proofs.«139325_j49752901156905_1_alg».proof.Proof.Gen.KernelIdeal
import proofs.«139325_j49752901156905_1_alg».proof.Proof.Gen.KernelIdeal.Skeleton
import proofs.«139325_j49752901156905_1_alg».proof.Proof.Gen.KernelIdeal.Launch
import proofs.«139325_j49752901156905_1_alg».proof.Proof.Gen.KernelIdeal.Points
import proofs.«139325_j49752901156905_1_alg».proof.Proof.Gen.KernelIdeal.Frame
import proofs.«139325_j49752901156905_1_alg».proof.Proof.Gen.ReferenceIdeal
import proofs.«139325_j49752901156905_1_alg».proof.Proof.Gen.Pre_finite_inputs
import proofs.«139325_j49752901156905_1_alg».proof.Proof.RefRunP
import proofs.«139325_j49752901156905_1_alg».proof.Proof.RefSide
import proofs.«139325_j49752901156905_1_alg».proof.Proof.Chase
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- On the extended reals both programs end with `Model.forward` of the arguments in their result. -/
theorem algebraic : Cert.algebraic_KernelIdeal_ReferenceIdeal := by
  intro m ρ m' ρ' _ hagree
  refine ⟨fun c => Cert.KernelIdeal.Model.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.res_eq m' c]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
